-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x32x64 : Shape := ⟨4, ![32, 128, 32, 64]⟩
abbrev S_ : Shape := ⟨0, ![]⟩

class Facts : Prop where
  bcast_S_S32x128x32x64 : S_.BroadcastsInDim S32x128x32x64 (![] : Fin 0 → Fin S32x128x32x64.rank)
  reducesTo_S32x128x32x64_S_d0_1_2_3 : S32x128x32x64.ReducesTo [0, 1, 2, 3] S_
  h_S_ : 0 < S_.numel

variable [Facts]

def fn_part1 {F : FTy → Type} [FloatOps F] (main_v13 : IVec S_ 1) (main_v16 : IVec S32x128x32x64 1) : IVec S_ 1 :=
  let main_c_5 : IVec S_ 1 := constantI S_ 1 1#1
  let main_v17 : IVec S_ 1 := (fun x v => Host.reduce IntOp.andi x v reducesTo_S32x128x32x64_S_d0_1_2_3 h_S_) main_v16 main_c_5
  let main_v18 : IVec S_ 1 := andi main_v13 main_v17
  main_v18

def fn {F : FTy → Type} [FloatOps F] (main_arg0 : FVec F S32x128x32x64 .f32) (main_arg1 : FVec F S32x128x32x64 .f32) (main_arg2 : FVec F S32x128x32x64 .f32) (main_arg3 : FVec F S32x128x32x64 .f32) : IVec S_ 1 :=
  let main_v0 : FVec F S32x128x32x64 .f32 := Host.absf main_arg0
  let main_cst : FVec F S_ .f32 := constant S_ .f32 0x7F800000#32
  let main_v1 : FVec F S32x128x32x64 .f32 := broadcastInDim S32x128x32x64 ![] bcast_S_S32x128x32x64 main_cst
  let main_v2 : IVec S32x128x32x64 1 := cmpf .olt main_v0 main_v1
  let main_c : IVec S_ 1 := constantI S_ 1 1#1
  let main_v3 : IVec S_ 1 := (fun x v => Host.reduce IntOp.andi x v reducesTo_S32x128x32x64_S_d0_1_2_3 h_S_) main_v2 main_c
  let main_v4 : FVec F S32x128x32x64 .f32 := Host.absf main_arg1
  let main_cst_0 : FVec F S_ .f32 := constant S_ .f32 0x7F800000#32
  let main_v5 : FVec F S32x128x32x64 .f32 := broadcastInDim S32x128x32x64 ![] bcast_S_S32x128x32x64 main_cst_0
  let main_v6 : IVec S32x128x32x64 1 := cmpf .olt main_v4 main_v5
  let main_c_1 : IVec S_ 1 := constantI S_ 1 1#1
  let main_v7 : IVec S_ 1 := (fun x v => Host.reduce IntOp.andi x v reducesTo_S32x128x32x64_S_d0_1_2_3 h_S_) main_v6 main_c_1
  let main_v8 : IVec S_ 1 := andi main_v3 main_v7
  let main_v9 : FVec F S32x128x32x64 .f32 := Host.absf main_arg2
  let main_cst_2 : FVec F S_ .f32 := constant S_ .f32 0x7F800000#32
  let main_v10 : FVec F S32x128x32x64 .f32 := broadcastInDim S32x128x32x64 ![] bcast_S_S32x128x32x64 main_cst_2
  let main_v11 : IVec S32x128x32x64 1 := cmpf .olt main_v9 main_v10
  let main_c_3 : IVec S_ 1 := constantI S_ 1 1#1
  let main_v12 : IVec S_ 1 := (fun x v => Host.reduce IntOp.andi x v reducesTo_S32x128x32x64_S_d0_1_2_3 h_S_) main_v11 main_c_3
  let main_v13 : IVec S_ 1 := andi main_v8 main_v12
  let main_v14 : FVec F S32x128x32x64 .f32 := Host.absf main_arg3
  let main_cst_4 : FVec F S_ .f32 := constant S_ .f32 0x7F800000#32
  let main_v15 : FVec F S32x128x32x64 .f32 := broadcastInDim S32x128x32x64 ![] bcast_S_S32x128x32x64 main_cst_4
  let main_v16 : IVec S32x128x32x64 1 := cmpf .olt main_v14 main_v15
  fn_part1 (F := F) main_v13 main_v16
-- ==== Kernel.lean ====
abbrev S32x128x32x64 : Shape := ⟨4, ![32, 128, 32, 64]⟩
abbrev S4096x2048 : Shape := ⟨2, ![4096, 2048]⟩
abbrev S16x128 : Shape := ⟨2, ![16, 128]⟩
abbrev S256x2048 : Shape := ⟨2, ![256, 2048]⟩
abbrev S8x128 : Shape := ⟨2, ![8, 128]⟩
abbrev S1x2048 : Shape := ⟨2, ![1, 2048]⟩
abbrev S2048 : Shape := ⟨1, ![2048]⟩
abbrev S1 : Shape := ⟨1, ![1]⟩
abbrev S1x1 : Shape := ⟨2, ![1, 1]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S32x128x32x64, .f32⟩
  | .hbm, ⟨1, _⟩ => ⟨S32x128x32x64, .f32⟩
  | .hbm, ⟨2, _⟩ => ⟨S32x128x32x64, .f32⟩
  | .hbm, ⟨3, _⟩ => ⟨S32x128x32x64, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | .local _ .vmem, ⟨9, _⟩ => ⟨S8x128, .f32⟩
  | .local _ .vmem, ⟨10, _⟩ => ⟨S1x2048, .f32⟩
  | _, _ => ⟨S32x128x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x128x32x64_S4096x2048 : S32x128x32x64.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S2048 : S256x2048.Reduces [0] S2048
  shapeCasts_S2048_S1x2048 : S2048.ShapeCasts S1x2048
  reduces_S1x2048_S1 : S1x2048.Reduces [1] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x128x32x64 : Shape := ⟨4, ![32, 128, 32, 64]⟩
abbrev S_ : Shape := ⟨0, ![]⟩
abbrev S32x128 : Shape := ⟨2, ![32, 128]⟩

abbrev nBuf : Space → Nat
  | .hbm => 27
  | .vmem => 0
  | .smem => 0
  | _ => 0

abbrev bufTy : (tb : Table) → Fin (tcTables nBuf tb) → BufTy
  | .hbm, ⟨0, _⟩ => ⟨S32x128x32x64, .f32⟩
  | .hbm, ⟨1, _⟩ => ⟨S32x128x32x64, .f32⟩
  | .hbm, ⟨2, _⟩ => ⟨S32x128x32x64, .f32⟩
  | .hbm, ⟨3, _⟩ => ⟨S32x128x32x64, .f32⟩
  | .hbm, ⟨4, _⟩ => ⟨S32x128x32x64, .f32⟩
  | .hbm, ⟨5, _⟩ => ⟨S32x128x32x64, .f32⟩
  | .hbm, ⟨6, _⟩ => ⟨S32x128x32x64, .f32⟩
  | .hbm, ⟨7, _⟩ => ⟨S32x128x32x64, .f32⟩
  | .hbm, ⟨8, _⟩ => ⟨S32x128x32x64, .f32⟩
  | .hbm, ⟨9, _⟩ => ⟨S32x128x32x64, .f32⟩
  | .hbm, ⟨10, _⟩ => ⟨S_, .f32⟩
  | .hbm, ⟨11, _⟩ => ⟨S32x128x32x64, .f32⟩
  | .hbm, ⟨12, _⟩ => ⟨S32x128x32x64, .f32⟩
  | .hbm, ⟨13, _⟩ => ⟨S32x128x32x64, .f32⟩
  | .hbm, ⟨14, _⟩ => ⟨S_, .f32⟩
  | .hbm, ⟨15, _⟩ => ⟨S32x128x32x64, .f32⟩
  | .hbm, ⟨16, _⟩ => ⟨S32x128x32x64, .f32⟩
  | .hbm, ⟨17, _⟩ => ⟨S32x128x32x64, .f32⟩
  | .hbm, ⟨18, _⟩ => ⟨S_, .f32⟩
  | .hbm, ⟨19, _⟩ => ⟨S32x128x32x64, .f32⟩
  | .hbm, ⟨20, _⟩ => ⟨S32x128x32x64, .f32⟩
  | .hbm, ⟨21, _⟩ => ⟨S_, .f32⟩
  | .hbm, ⟨22, _⟩ => ⟨S32x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S32x128x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S32x128x32x64 : S_.BroadcastsInDim S32x128x32x64 (![] : Fin 0 → Fin S32x128x32x64.rank)
  reducesTo_S32x128x32x64_S32x128_d2_3 : S32x128x32x64.ReducesTo [2, 3] S32x128
  h_S_ : 0 < S_.numel
  reducesTo_S32x128_S_d0_1 : S32x128.ReducesTo [0, 1] S_

variable [Facts₀]

class Facts : Prop extends Facts₀ where

variable [Facts]
-- ==== Proof.KernelBlocks.lean ====
/-
  What the four input windows read.

  Before the call the host views each [32, 128, 32, 64] argument as a [4096, 2048] matrix (a reshape: same row-major
  order).  The call walks that matrix in sixteen blocks of 256 rows, block t at grid point t (the index map sends
  point (c, i) to row block 8 c + i, which is the point's own position in the grid's row-major order).  So entry
  (k, l) of the block a window holds at point t is entry (256 t + k, l) of the matrix.
-/
import proofs.«167127_j74560632259496_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Found

open Cert.KernelIdeal Cert.KernelIdeal.Gen

variable {F : FTy → Type} [FloatOps F]
variable (m : (ℓ : Loc nD τ sig) → Buf (Elt F) ℓ)

/-- Row 256 t + k is one of the 4096 rows. -/
theorem row_lt (t : Fin cfg0.N) (k : Fin 256) : t.val * 256 + k.val < 4096 := by
  have := t.isLt; have hN : cfg0.N = 16 := N_0; have := k.isLt; omega

/-- Array 0 of the call is the row-major [4096, 2048] view of argument 0. -/
theorem V_v0 (c : Dev nD) : (V m c main_v0 : S4096x2048.Idx → Elt F .f32)
    = shapeCast S4096x2048 (m ((c : Thread nD τ).loc main_arg0)) shapeCasts_S32x128x32x64_S4096x2048 := by
  show StableHlo.after hostOps0 (fun b => m (c, b)) (Proc.devRef .tc main_v0) = _
  after_results
  rfl

/-- At grid point t, window 0's block is row block t, all 2048 lanes. -/
theorem idx_in0 : ∀ t : Fin cfg0.N, win0_0.index t (0 : Fin 2) = t.val ∧ win0_0.index t (1 : Fin 2) = 0 :=
  (by decide +kernel : ∀ t : Fin grid0.N, _)

/-- So entry (k, l) of the block is entry (256 t + k, l) of the array. -/
theorem iblk0_apply (c : Dev nD) (t : Fin cfg0.N) (k : Fin 256) (l : Fin 2048) :
    (iblk m c 0 t : Vec F S256x2048 .f32) (ix2 k l)
      = (V m c main_v0 : S4096x2048.Idx → Elt F .f32) (ix2 ⟨t.val * 256 + k.val, row_lt t k⟩ l) := by
  unfold iblk
  rw [View.read_apply]
  show V m c main_v0 _ = V m c main_v0 _
  congr 1
  funext a
  apply Fin.ext
  match a with
  | ⟨0, _⟩ => show win0_0.index t 0 * 256 + 1 * k.val = t.val * 256 + k.val; rw [(idx_in0 t).1]; omega
  | ⟨1, _⟩ => show win0_0.index t 1 * 2048 + 1 * l.val = l.val; rw [(idx_in0 t).2]; omega

/-- Array 1 of the call is the row-major [4096, 2048] view of argument 1. -/
theorem V_v1 (c : Dev nD) : (V m c main_v1 : S4096x2048.Idx → Elt F .f32)
    = shapeCast S4096x2048 (m ((c : Thread nD τ).loc main_arg1)) shapeCasts_S32x128x32x64_S4096x2048 := by
  show StableHlo.after hostOps0 (fun b => m (c, b)) (Proc.devRef .tc main_v1) = _
  after_results
  rfl

/-- At grid point t, window 1's block is row block t, all 2048 lanes. -/
theorem idx_in1 : ∀ t : Fin cfg0.N, win0_1.index t (0 : Fin 2) = t.val ∧ win0_1.index t (1 : Fin 2) = 0 :=
  (by decide +kernel : ∀ t : Fin grid0.N, _)

/-- So entry (k, l) of the block is entry (256 t + k, l) of the array. -/
theorem iblk1_apply (c : Dev nD) (t : Fin cfg0.N) (k : Fin 256) (l : Fin 2048) :
    (iblk m c 1 t : Vec F S256x2048 .f32) (ix2 k l)
      = (V m c main_v1 : S4096x2048.Idx → Elt F .f32) (ix2 ⟨t.val * 256 + k.val, row_lt t k⟩ l) := by
  unfold iblk
  rw [View.read_apply]
  show V m c main_v1 _ = V m c main_v1 _
  congr 1
  funext a
  apply Fin.ext
  match a with
  | ⟨0, _⟩ => show win0_1.index t 0 * 256 + 1 * k.val = t.val * 256 + k.val; rw [(idx_in1 t).1]; omega
  | ⟨1, _⟩ => show win0_1.index t 1 * 2048 + 1 * l.val = l.val; rw [(idx_in1 t).2]; omega

/-- Array 2 of the call is the row-major [4096, 2048] view of argument 2. -/
theorem V_v2 (c : Dev nD) : (V m c main_v2 : S4096x2048.Idx → Elt F .f32)
    = shapeCast S4096x2048 (m ((c : Thread nD τ).loc main_arg2)) shapeCasts_S32x128x32x64_S4096x2048 := by
  show StableHlo.after hostOps0 (fun b => m (c, b)) (Proc.devRef .tc main_v2) = _
  after_results
  rfl

/-- At grid point t, window 2's block is row block t, all 2048 lanes. -/
theorem idx_in2 : ∀ t : Fin cfg0.N, win0_2.index t (0 : Fin 2) = t.val ∧ win0_2.index t (1 : Fin 2) = 0 :=
  (by decide +kernel : ∀ t : Fin grid0.N, _)

/-- So entry (k, l) of the block is entry (256 t + k, l) of the array. -/
theorem iblk2_apply (c : Dev nD) (t : Fin cfg0.N) (k : Fin 256) (l : Fin 2048) :
    (iblk m c 2 t : Vec F S256x2048 .f32) (ix2 k l)
      = (V m c main_v2 : S4096x2048.Idx → Elt F .f32) (ix2 ⟨t.val * 256 + k.val, row_lt t k⟩ l) := by
  unfold iblk
  rw [View.read_apply]
  show V m c main_v2 _ = V m c main_v2 _
  congr 1
  funext a
  apply Fin.ext
  match a with
  | ⟨0, _⟩ => show win0_2.index t 0 * 256 + 1 * k.val = t.val * 256 + k.val; rw [(idx_in2 t).1]; omega
  | ⟨1, _⟩ => show win0_2.index t 1 * 2048 + 1 * l.val = l.val; rw [(idx_in2 t).2]; omega

/-- Array 3 of the call is the row-major [4096, 2048] view of argument 3. -/
theorem V_v3 (c : Dev nD) : (V m c main_v3 : S4096x2048.Idx → Elt F .f32)
    = shapeCast S4096x2048 (m ((c : Thread nD τ).loc main_arg3)) shapeCasts_S32x128x32x64_S4096x2048 := by
  show StableHlo.after hostOps0 (fun b => m (c, b)) (Proc.devRef .tc main_v3) = _
  after_results
  rfl

/-- At grid point t, window 3's block is row block t, all 2048 lanes. -/
theorem idx_in3 : ∀ t : Fin cfg0.N, win0_3.index t (0 : Fin 2) = t.val ∧ win0_3.index t (1 : Fin 2) = 0 :=
  (by decide +kernel : ∀ t : Fin grid0.N, _)

/-- So entry (k, l) of the block is entry (256 t + k, l) of the array. -/
theorem iblk3_apply (c : Dev nD) (t : Fin cfg0.N) (k : Fin 256) (l : Fin 2048) :
    (iblk m c 3 t : Vec F S256x2048 .f32) (ix2 k l)
      = (V m c main_v3 : S4096x2048.Idx → Elt F .f32) (ix2 ⟨t.val * 256 + k.val, row_lt t k⟩ l) := by
  unfold iblk
  rw [View.read_apply]
  show V m c main_v3 _ = V m c main_v3 _
  congr 1
  funext a
  apply Fin.ext
  match a with
  | ⟨0, _⟩ => show win0_3.index t 0 * 256 + 1 * k.val = t.val * 256 + k.val; rw [(idx_in3 t).1]; omega
  | ⟨1, _⟩ => show win0_3.index t 1 * 2048 + 1 * l.val = l.val; rw [(idx_in3 t).2]; omega

end Cert.KernelIdeal.Found

end
-- ==== Proof.KernelPieces.lean ====
/-
  What each control case of the kernel body leaves behind, as values.

  The body has three cases on the inner grid coordinate: the first step of a core's eight (A), a middle step (B)
  and the last step (C).  In every case it stores once into the [1, 2048] accumulator: the accumulator it loaded,
  plus the row sums of the element-wise divergence of the four input blocks.  In case A the accumulator it loads is
  the zero row it has just stored itself; in cases B and C it is what the step before left.  Only case C stores into
  the output block: the lane sum of the accumulator it has just written, placed at entry (0, 0), zeros elsewhere.
  Each statement below reads the case's covering store back as the payload it stored.
-/
import proofs.«167127_j74560632259496_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- First step: the accumulator ends at the row sums added to the zero row. -/
theorem acc_first (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S1x2048 .f32) (h7 : a7.IsWhole)
    (hc0 : cond0_0 i) (hc1 : ¬cond0_1 i)
    (x0 x1 x2 x3 : Vec F S256x2048 .f32) :
    sout0_A_0 c i a2 h2 a3 h3 a4 h4 a5 h5 a6 h6 a7 h7 hc0 hc1 x0 x1 x2 x3 = k0_pay3 x0 x1 x2 x3 (k0_pay2 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x2048) hz, View.readCov_unit_zero (S := S1x2048) _ hz]
  simp only [View.readAt_eq_ld, h2.read_unread, h3.read_unread, h4.read_unread, h5.read_unread,
    View.ld_unit_zero (S := S256x2048) hz]

/-- Middle step: the row sums added to what the step before left. -/
theorem acc_middle (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S1x2048 .f32) (h7 : a7.IsWhole)
    (hc0 : ¬cond0_0 i) (hc1 : ¬cond0_1 i)
    (x0 x1 x2 x3 : Vec F S256x2048 .f32) (xs : Vec F S1x2048 .f32) :
    sout0_B_0 c i a2 h2 a3 h3 a4 h4 a5 h5 a6 h6 a7 h7 hc0 hc1 x0 x1 x2 x3 xs = k0_pay3 x0 x1 x2 x3 xs := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_unit_zero hz]
  simp only [View.readAt_eq_ld, h2.read_unread, h3.read_unread, h4.read_unread, h5.read_unread, h7.read_unread,
    View.ld_unit_zero (S := S256x2048) hz, View.ld_unit_zero (S := S1x2048) hz]

/-- Last step: the accumulator as in a middle step … -/
theorem acc_last (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S1x2048 .f32) (h7 : a7.IsWhole)
    (hc0 : ¬cond0_0 i) (hc1 : cond0_1 i)
    (x0 x1 x2 x3 : Vec F S256x2048 .f32) (xs : Vec F S1x2048 .f32) :
    sout0_C_0 c i a2 h2 a3 h3 a4 h4 a5 h5 a6 h6 a7 h7 hc0 hc1 x0 x1 x2 x3 xs = k0_pay3 x0 x1 x2 x3 xs := by
  unfold sout0_C_0
  rw [View.read_writes_eq_canon _ _ _ (scover0_C_0 c i a2 h2 a3 h3 a4 h4 a5 h5 a6 h6 a7 h7 hc0 hc1 x0 x1 x2 x3 xs)]
  unfold kernelRun0_C
  dsimp only
  sl_unfold_words
  rw [View.canon_unit_zero hz]
  simp only [View.readAt_eq_ld, h2.read_unread, h3.read_unread, h4.read_unread, h5.read_unread, h7.read_unread,
    View.ld_unit_zero (S := S256x2048) hz, View.ld_unit_zero (S := S1x2048) hz]

/-- … and the output block is computed from that accumulator, read back after it was stored. -/
theorem out_last (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S8x128 .f32) (h6 : a6.IsWhole) (a7 : Memref sig .tc .vmem S1x2048 .f32) (h7 : a7.IsWhole)
    (hc0 : ¬cond0_0 i) (hc1 : cond0_1 i)
    (x0 x1 x2 x3 : Vec F S256x2048 .f32) (xs : Vec F S1x2048 .f32) :
    out0_C_4 c i a2 h2 a3 h3 a4 h4 a5 h5 a6 h6 a7 h7 hc0 hc1 x0 x1 x2 x3 xs = k0_pay1 (k0_pay3 x0 x1 x2 x3 xs) := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  rw [View.canon_unit_zero hz, View.readCov_unit_zero (S := S1x2048) _ hz]
  simp only [View.readAt_eq_ld, h2.read_unread, h3.read_unread, h4.read_unread, h5.read_unread, h7.read_unread,
    View.ld_unit_zero (S := S256x2048) hz, View.ld_unit_zero (S := S1x2048) hz]

end Cert.KernelIdeal.Found

end
-- ==== Proof.KlPoint.lean ====
/-
  One element of the divergence, two ways.

  With a = prior sigma, d = posterior mean - prior mean and q = posterior sigma, the reference forms the two
  quotients a / q and d / q, while the kernel forms the reciprocal 1 / q once and multiplies by it.  Away from
  q = 0 these are literally the same extended reals (x / q is x * q⁻¹ and 1 * q⁻¹ = q⁻¹).  At q = 0 they are
  NOT: the reciprocal is +∞, so the kernel's ratio is a * ∞, which is 0 when a = 0, whereas the quotient 0 / 0
  reads -∞.  The element is nevertheless the same on both sides, because

      1/2 * ((r * r + f * f - 1) - 2 * log r)

  only sees r through r * r and log r, and f through f * f: squaring sends both infinities to +∞, the sum with
  +∞ is +∞ whatever the other square is, and log sends 0 and -∞ alike to -∞.  The nine sign cases of (a, d) at
  q = 0 are checked one by one.  Finiteness of a, d, q is what the case split needs.
-/
import Idealize.ShloMosaic.PureOps.Ideal

noncomputable section

namespace Cert.Kl

open Idealize.ShloMosaic

/-- The element with the reciprocal shared: `one`, `two`, `half` are the three float constants the programs spell. -/
def shared (one two half : EReal) (pm ps qm qs : EReal) : EReal :=
  half * ((((ps * Ideal.div one qs) * (ps * Ideal.div one qs)
            + ((qm - pm) * Ideal.div one qs) * ((qm - pm) * Ideal.div one qs)) - one)
          - two * Ideal.log (ps * Ideal.div one qs))

/-- The element with two quotients. -/
def quot (one two half : EReal) (pm ps qm qs : EReal) : EReal :=
  half * (((Ideal.div ps qs * Ideal.div ps qs + Ideal.div (qm - pm) qs * Ideal.div (qm - pm) qs) - one)
          - two * Ideal.log (Ideal.div ps qs))

theorem log_coe (r : ℝ) : Ideal.log (r : EReal) = if r ≤ 0 then ⊥ else (Real.log r : EReal) := rfl
theorem log_top : Ideal.log ⊤ = ⊤ := rfl
theorem log_bot : Ideal.log ⊥ = ⊥ := rfl
theorem log_zero : Ideal.log 0 = ⊥ := (log_coe 0).trans (if_pos le_rfl)

/-- A real times +∞, against the same real over 0, by the real's sign: both -∞; 0 against -∞; both +∞. -/
theorem corner (x : ℝ) :
    ((x : EReal) * ⊤ = ⊥ ∧ Ideal.div (x : EReal) ((0 : ℝ) : EReal) = ⊥) ∨
    ((x : EReal) * ⊤ = 0 ∧ Ideal.div (x : EReal) ((0 : ℝ) : EReal) = ⊥) ∨
    ((x : EReal) * ⊤ = ⊤ ∧ Ideal.div (x : EReal) ((0 : ℝ) : EReal) = ⊤) := by
  rcases lt_trichotomy x 0 with h | h | h
  · refine Or.inl ⟨EReal.coe_mul_top_of_neg h, ?_⟩
    have : ¬ (0 : EReal) < (x : EReal) := not_lt.mpr (by exact_mod_cast h.le)
    simp [Ideal.div, this]
  · subst h
    exact Or.inr (Or.inl ⟨by simp, by simp [Ideal.div]⟩)
  · refine Or.inr (Or.inr ⟨EReal.coe_mul_top_of_pos h, ?_⟩)
    have : (0 : EReal) < (x : EReal) := by exact_mod_cast h
    simp [Ideal.div, this]

/-- At real arguments, with the constants 1 and 2, the two elements are equal. -/
theorem shared_eq_quot_real (half : EReal) (a d q : ℝ) :
    half * ((((a * Ideal.div 1 (q : EReal)) * (a * Ideal.div 1 (q : EReal))
            + ((d : EReal) * Ideal.div 1 (q : EReal)) * ((d : EReal) * Ideal.div 1 (q : EReal))) - 1)
          - ((2 : ℝ) : EReal) * Ideal.log (a * Ideal.div 1 (q : EReal)))
    = half * (((Ideal.div a q * Ideal.div a q + Ideal.div (d : EReal) q * Ideal.div (d : EReal) q) - 1)
          - ((2 : ℝ) : EReal) * Ideal.log (Ideal.div a q)) := by
  by_cases hq : q = 0
  · subst hq
    have h1 : Ideal.div 1 ((0 : ℝ) : EReal) = ⊤ := by simp [Ideal.div]
    rw [h1]
    have h2 : ((2 : ℝ) : EReal) * ⊥ = ⊥ := EReal.coe_mul_bot_of_pos (by norm_num)
    have h2t : ((2 : ℝ) : EReal) * ⊤ = ⊤ := EReal.coe_mul_top_of_pos (by norm_num)
    have hm1 : (-1 : EReal) = ((-1 : ℝ) : EReal) := by rw [EReal.coe_neg, EReal.coe_one]
    have hmt : (-1 : EReal) + ⊤ = ⊤ := by rw [hm1]; exact EReal.coe_add_top _
    have htm : (⊤ : EReal) + -1 = ⊤ := by rw [hm1]; exact EReal.top_add_coe _
    rcases corner a with ⟨ha, ha'⟩ | ⟨ha, ha'⟩ | ⟨ha, ha'⟩ <;>
      rcases corner d with ⟨hd, hd'⟩ | ⟨hd, hd'⟩ | ⟨hd, hd'⟩ <;>
      rw [ha, ha', hd, hd'] <;>
      simp [log_top, log_bot, log_zero, h2, h2t, sub_eq_add_neg, hmt, htm]
  · have hq' : ((q : ℝ) : EReal) ≠ 0 := by exact_mod_cast hq
    simp only [Ideal.div, if_neg hq', one_mul]

/-- The word of 1.0 denotes 1. -/
theorem one_val : Ideal.ofBits .f32 0x3F800000#32 = 1 := by
  simp [Ideal.ofBits, Ideal.ieee, -EReal.coe_mul]; norm_num

/-- The word of 2.0 denotes 2. -/
theorem two_val : Ideal.ofBits .f32 0x40000000#32 = ((2 : ℝ) : EReal) := by
  simp [Ideal.ofBits, Ideal.ieee, -EReal.coe_mul]; norm_num

/-- At finite arguments and the programs' own constants, sharing the reciprocal changes no element. -/
theorem shared_eq_quot (half : EReal) (pm ps qm qs : ℝ) :
    shared (Ideal.ofBits .f32 0x3F800000#32) (Ideal.ofBits .f32 0x40000000#32) half pm ps qm qs
    = quot (Ideal.ofBits .f32 0x3F800000#32) (Ideal.ofBits .f32 0x40000000#32) half pm ps qm qs := by
  unfold shared quot
  rw [one_val, two_val, ← EReal.coe_sub]
  exact shared_eq_quot_real half ps (qm - pm) qs

end Cert.Kl

end
-- ==== Proof.KernelPayloads.lean ====
/-
  The body's three stored values, entry by entry, over the extended reals.

  The zero row is zero.  The accumulator's new lane l is its old lane l plus the sum, over the block's 256 rows k, of
  the divergence element with the shared reciprocal at (k, l): the row reduction reads (k, l) for every k, and the
  [2048] -> [1, 2048] cast keeps the lane.  The output block is, at (0, 0), the sum of the accumulator's 2048 lanes,
  and zero at every other entry: the mask is "row coordinate 0 and lane coordinate 0", two equality tests of the
  coordinates (below 8 and below 128, so nothing wraps in 32 bits) joined by a bitwise and.
-/
import proofs.«167127_j74560632259496_2_alg».proof.Proof.Gen.KernelIdeal.Skeleton
import proofs.«167127_j74560632259496_2_alg».proof.Proof.KlPoint
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Found

open Cert.KernelIdeal Cert.KernelIdeal.Gen

/-- A 32-bit word of a number below 2^32 is the zero word only for 0. -/
theorem ofNat_eq_zero_iff (a : ℕ) (ha : a < 4294967296) : BitVec.ofNat 32 a = 0#32 ↔ a = 0 := by
  constructor
  · intro h
    have h' := congrArg BitVec.toNat h
    simp only [BitVec.toNat_ofNat, BitVec.toNat_zero] at h'
    omega
  · rintro rfl; rfl

/-- The and of two one-bit truth values is set exactly when both are true. -/
theorem and_ofBool (p q : Bool) : IntOp.andi (BitVec.ofBool p) (BitVec.ofBool q) = 1#1 ↔ p = true ∧ q = true := by
  cases p <;> cases q <;> decide

/-- The mask bit at coordinates (a, b) of the [8, 128] block is set exactly at (0, 0). -/
theorem mask_iff (a b : ℕ) (ha : a < 8) (hb : b < 128) :
    IntOp.andi (IntOp.cmpi .eq (BitVec.ofNat 32 a) 0#32) (IntOp.cmpi .eq (BitVec.ofNat 32 b) 0#32) = 1#1 ↔ a = 0 ∧ b = 0 := by
  unfold IntOp.cmpi
  rw [and_ofBool, beq_iff_eq, beq_iff_eq, ofNat_eq_zero_iff a (by omega), ofNat_eq_zero_iff b (by omega)]

/-- Summing the [256, 2048] block over its rows reads, for lane l, the entries (k, l). -/
theorem lift_rows (l : Fin 2048) (k : Fin 256) : reduces_S256x2048_S2048.lift (ix1 l) k = ix2 k l :=
  funext fun d => match d with | ⟨0, _⟩ => Fin.ext rfl | ⟨1, _⟩ => Fin.ext rfl

/-- Summing the [1, 2048] row over its lanes reads the entries (0, k). -/
theorem lift_lanes (k : Fin 2048) : reduces_S1x2048_S1.lift (ix1 (0 : Fin 1)) k = ix2 (0 : Fin 1) k :=
  funext fun d => match d with | ⟨0, _⟩ => Fin.ext rfl | ⟨1, _⟩ => Fin.ext rfl

/-- The row the first step stores is zero. -/
theorem zero_row_apply (y : S1x2048.Idx) : k0_pay2 (F := Ideal) y = 0 := by
  unfold k0_pay2
  simp only [shapeCast_self]
  exact Ideal.ofBits_zero_f32

/-- The accumulator's new lane: the old lane plus the block's column of elements. -/
theorem acc_apply (x0 x1 x2 x3 : Vec Ideal S256x2048 .f32) (xs : Vec Ideal S1x2048 .f32) (l : Fin 2048) :
    k0_pay3 (F := Ideal) x0 x1 x2 x3 xs (ix2 (0 : Fin 1) l)
      = xs (ix2 (0 : Fin 1) l) + ∑ k : Fin 256, Cert.Kl.shared (Ideal.ofBits .f32 0x3F800000#32) (Ideal.ofBits .f32 0x40000000#32)
          (Ideal.ofBits .f32 0x3F000000#32) (x0 (ix2 k l)) (x1 (ix2 k l)) (x2 (ix2 k l)) (x3 (ix2 k l)) := by
  unfold k0_pay3
  simp only [shapeCast_self]
  refine congrArg (xs (ix2 (0 : Fin 1) l) + ·) ?_
  refine (shapeCast_apply _ shapeCasts_S2048_S1x2048 (ix2 (0 : Fin 1) l) (ix1 l) ?_).trans ?_
  · rw [Shape.rowMajor_val_one, Shape.rowMajor_val_two]
    show l.val = 0 * 2048 + l.val
    omega
  refine (Ideal.multiReduction_add_single _ _ reduces_S256x2048_S2048 _ _ (ix1 l)).trans ?_
  exact Finset.sum_congr rfl fun k _ => (congrArg _ (lift_rows l k)).trans rfl

/-- The output block: the accumulator's lanes summed, at (0, 0); zero elsewhere. -/
theorem out_apply (v : Vec Ideal S1x2048 .f32) (a : Fin 8) (b : Fin 128) :
    k0_pay1 (F := Ideal) v (ix2 a b) = if a.val = 0 ∧ b.val = 0 then ∑ l : Fin 2048, v (ix2 (0 : Fin 1) l) else 0 := by
  unfold k0_pay1
  simp only [shapeCast_self]
  have e0 := iota_single_apply .tc S8x128 32 0 iota_S8x128_d0_w32 (ix2 a b)
  have e1 := iota_single_apply .tc S8x128 32 1 iota_S8x128_d1_w32 (ix2 a b)
  show (if IntOp.andi (IntOp.cmpi .eq (iota .tc S8x128 32 [0] iota_S8x128_d0_w32 (ix2 a b)) 0#32)
        (IntOp.cmpi .eq (iota .tc S8x128 32 [1] iota_S8x128_d1_w32 (ix2 a b)) 0#32) = 1#1 then _ else Ideal.ofBits .f32 0#32) = _
  rw [e0, e1, Ideal.ofBits_zero_f32]
  show (if IntOp.andi (IntOp.cmpi .eq (BitVec.ofNat 32 a.val) 0#32) (IntOp.cmpi .eq (BitVec.ofNat 32 b.val) 0#32) = 1#1 then _ else _) = _
  by_cases h : a.val = 0 ∧ b.val = 0
  · rw [if_pos h, if_pos ((mask_iff a.val b.val a.isLt b.isLt).mpr h)]
    refine (broadcastTo_apply _ broadcasts_S1x1_S8x128 (ix2 a b) (ix2 (0 : Fin 1) (0 : Fin 1)) ?_).trans ?_
    · intro a'; match a' with | ⟨0, _⟩ => rfl | ⟨1, _⟩ => rfl
    refine (shapeCast_apply _ shapeCasts_S1_S1x1 (ix2 (0 : Fin 1) (0 : Fin 1)) (ix1 (0 : Fin 1)) ?_).trans ?_
    · rw [Shape.rowMajor_val_one, Shape.rowMajor_val_two]
      rfl
    refine (Ideal.multiReduction_add_single _ _ reduces_S1x2048_S1 _ _ (ix1 (0 : Fin 1))).trans ?_
    exact Finset.sum_congr rfl fun k _ => congrArg v (lift_lanes k)
  · rw [if_neg h, if_neg (fun hm => h ((mask_iff a.val b.val a.isLt b.isLt).mp hm))]

end Cert.KernelIdeal.Found

end
-- ==== Proof.KlSums.lean ====
/-
  The bookkeeping of one sum taken in the kernel's order.

  E a l is a [4096, 2048] table of extended reals.  The kernel walks it in sixteen row blocks of 256 rows, eight per
  core: at each block it adds, lane by lane, the block's 256 rows into a [2048] accumulator that was cleared at the
  first block of the core's eight; after the eighth it sums the accumulator's lanes into one number and stores that
  number at entry (0, 0) of the core's own 8 x 128 slab of a [16, 128] table, zeros elsewhere; the host adds up the
  table.  Addition of extended reals is commutative and associative (the sum of +∞ and -∞ is -∞, whichever way it is
  bracketed), so every regrouping below is an identity of finite sums in a commutative monoid, and no finiteness
  is used here.
-/
import Idealize.ShloMosaic.Lib.ValueIdx
import Idealize.ShloMosaic.PureOps.Ideal

noncomputable section

namespace Cert.Kl

open Idealize.ShloMosaic Idealize.ShloMosaic.ValueIdx

variable (E : Fin 4096 → Fin 2048 → EReal)

/-- Lane `l` of row block `s`: the sum of rows 256 s … 256 s + 255 (nothing, past the sixteenth block). -/
def rowBlock (s : ℕ) (l : Fin 2048) : EReal :=
  if h : s < 16 then ∑ r : Fin 256, E ⟨s * 256 + r.val, by have := r.isLt; omega⟩ l else 0

/-- Lane `l` of the accumulator after block `n`: the row blocks of `n`'s group of eight, up to `n`. -/
def acc (n : ℕ) (l : Fin 2048) : EReal := ∑ s ∈ Finset.Icc (n / 8 * 8) n, rowBlock E s l

/-- At the first block of a group the accumulator is that block alone. -/
theorem acc_first (n : ℕ) (h : n % 8 = 0) (l : Fin 2048) : acc E n l = rowBlock E n l := by
  unfold acc
  have e : n / 8 * 8 = n := by omega
  rw [e, Finset.Icc_self, Finset.sum_singleton]

/-- Inside a group each block is added to what the block before left. -/
theorem acc_step (n : ℕ) (h : ¬ (n + 1) % 8 = 0) (l : Fin 2048) :
    acc E (n + 1) l = acc E n l + rowBlock E (n + 1) l := by
  unfold acc
  have e : (n + 1) / 8 * 8 = n / 8 * 8 := by omega
  rw [e, Finset.sum_Icc_succ_top (by omega)]

/-- The sixteen row blocks are the 4096 rows. -/
theorem sum_rowBlocks (l : Fin 2048) : (∑ s ∈ Finset.range 16, rowBlock E s l) = ∑ a : Fin 4096, E a l := by
  rw [Finset.sum_range]
  have hb : ∀ s : Fin 16, rowBlock E s.val l = ∑ r : Fin 256, E (finProdFinEquiv (s, r)) l := by
    intro s
    unfold rowBlock
    rw [dif_pos s.isLt]
    refine Finset.sum_congr rfl fun r _ => ?_
    congr 1
    apply Fin.ext
    show s.val * 256 + r.val = r.val + 256 * s.val
    omega
  simp only [hb]
  rw [← Fintype.sum_prod_type (f := fun p : Fin 16 × Fin 256 => E (finProdFinEquiv p) l)]
  exact Fintype.sum_equiv finProdFinEquiv _ _ (fun _ => rfl)

/-- The two groups' last accumulators together hold all sixteen row blocks. -/
theorem acc_groups (l : Fin 2048) : acc E 7 l + acc E 15 l = ∑ s ∈ Finset.range 16, rowBlock E s l := by
  show (∑ s ∈ Finset.Icc 0 7, rowBlock E s l) + (∑ s ∈ Finset.Icc 8 15, rowBlock E s l) = _
  have hU : Finset.range 16 = Finset.Icc 0 7 ∪ Finset.Icc 8 15 := by
    ext x; simp only [Finset.mem_range, Finset.mem_union, Finset.mem_Icc]; omega
  have hD : Disjoint (Finset.Icc 0 7) (Finset.Icc 8 15) := by
    rw [Finset.disjoint_left]; intro x; simp only [Finset.mem_Icc]; omega
  rw [hU, Finset.sum_union hD]

/-- The number a core's slab carries: the lanes of its last accumulator, summed. -/
def coreSum (c : ℕ) : EReal := ∑ l : Fin 2048, acc E (8 * c + 7) l

/-- The [16, 128] table the kernel leaves: core `c`'s number at (8 c, 0), zero elsewhere. -/
def slab (p : (⟨2, ![16, 128]⟩ : Shape).Idx) : EReal :=
  if (p 0).val % 8 = 0 ∧ (p 1).val = 0 then coreSum E ((p 0).val / 8) else 0

/-- Adding up the table gives the two cores' numbers. -/
theorem sum_slab : ∑ p, slab E p = coreSum E 0 + coreSum E 1 := by
  rw [sum_idx2]
  have hin : ∀ a : Fin 16, (∑ b : Fin 128, slab E (ix2 a b)) = if a.val % 8 = 0 then coreSum E (a.val / 8) else 0 := by
    intro a
    rw [Finset.sum_eq_single (⟨0, by norm_num⟩ : Fin 128)]
    · show (if a.val % 8 = 0 ∧ (0 : ℕ) = 0 then _ else _) = _
      simp
    · intro b _ hb
      have : b.val ≠ 0 := fun h => hb (Fin.ext h)
      show (if a.val % 8 = 0 ∧ b.val = 0 then _ else _) = _
      simp [this]
    · intro h; exact absurd (Finset.mem_univ _) h
  simp only [hin]
  rw [Fin.sum_univ_eq_sum_range (fun a => if a % 8 = 0 then coreSum E (a / 8) else 0) 16]
  simp [Finset.sum_range_succ]

/-- So the table's total is the sum of every entry of `E`. -/
theorem sum_slab_eq_total : ∑ p, slab E p = ∑ a : Fin 4096, ∑ l : Fin 2048, E a l := by
  rw [sum_slab]
  show (∑ l : Fin 2048, acc E 7 l) + (∑ l : Fin 2048, acc E 15 l) = _
  rw [← Finset.sum_add_distrib, Finset.sum_comm]
  exact Finset.sum_congr rfl fun l _ => (acc_groups E l).trans (sum_rowBlocks E l)

end Cert.Kl

end
-- ==== Proof.KernelAcc.lean ====
/-
  The accumulator, point by point.

  Write E a l for the divergence element (with the shared reciprocal) at row a, lane l of the four [4096, 2048]
  matrices.  At grid point t the body adds, lane by lane, row block t of E to the accumulator it loads, which at the
  first point of a core's eight is the zero row it has just stored and otherwise is what point t - 1 left.  By
  induction on the point, after point n the accumulator's lane l is the sum of the row blocks of n's group of eight,
  from the group's first up to n.  At the last point of a group the output block is stored: the accumulator's lanes
  summed, at entry (0, 0), and zero at the other entries.
-/
import proofs.«167127_j74560632259496_2_alg».proof.Proof.KernelBlocks
import proofs.«167127_j74560632259496_2_alg».proof.Proof.KernelPieces
import proofs.«167127_j74560632259496_2_alg».proof.Proof.KernelPayloads
import proofs.«167127_j74560632259496_2_alg».proof.Proof.KlSums

noncomputable section

open Idealize.ShloMosaic Idealize.ShloMosaic.TcCoe Idealize.SL.Sem Idealize.ShloMosaic.ValueIdx

namespace Cert.KernelIdeal.Found

open Cert.KernelIdeal Cert.KernelIdeal.Gen Cert.KernelIdeal.Found

variable (m : (ℓ : Loc nD τ sig) → Buf (Elt Ideal) ℓ)

/-- The table the kernel sums: the divergence element with the shared reciprocal, at row a and lane l of the four
    [4096, 2048] matrices. -/
def elemK (c : Dev nD) (a : Fin 4096) (l : Fin 2048) : EReal :=
  Cert.Kl.shared (Ideal.ofBits .f32 0x3F800000#32) (Ideal.ofBits .f32 0x40000000#32) (Ideal.ofBits .f32 0x3F000000#32)
    ((V m c main_v0 : S4096x2048.Idx → Elt Ideal .f32) (ix2 a l)) ((V m c main_v1 : S4096x2048.Idx → Elt Ideal .f32) (ix2 a l))
    ((V m c main_v2 : S4096x2048.Idx → Elt Ideal .f32) (ix2 a l)) ((V m c main_v3 : S4096x2048.Idx → Elt Ideal .f32) (ix2 a l))

/-- One step at grid point t: lane l of the stored accumulator is lane l of the loaded one plus row block t. -/
theorem step_lane (c : Dev nD) (t : Fin cfg0.N) (xs : Vec Ideal S1x2048 .f32) (prev : EReal) (l : Fin 2048)
    (hxs : xs (ix2 (0 : Fin 1) l) = prev) :
    k0_pay3 (F := Ideal) (iblk m c 0 t) (iblk m c 1 t) (iblk m c 2 t) (iblk m c 3 t) xs (ix2 (0 : Fin 1) l)
      = prev + Cert.Kl.rowBlock (elemK m c) t.val l := by
  have hN : cfg0.N = 16 := N_0
  refine (acc_apply (iblk m c 0 t) (iblk m c 1 t) (iblk m c 2 t) (iblk m c 3 t) xs l).trans ?_
  rw [hxs]
  unfold Cert.Kl.rowBlock
  rw [dif_pos (by have := t.isLt; omega)]
  refine congrArg (prev + ·) (Finset.sum_congr rfl fun k _ => ?_)
  rw [iblk0_apply, iblk1_apply, iblk2_apply, iblk3_apply]
  rfl

/-- At the first step of a group the accumulator ends at that row block alone (the zero row plus it). -/
theorem lane_first (c : Dev nD) (t : Fin cfg0.N) (h0 : t.val % 8 = 0) (h1 : ¬t.val % 8 = 7) (l : Fin 2048) :
    (outsAt0 (F := Ideal) m c t.val t.isLt).2 (ix2 (0 : Fin 1) l) = Cert.Kl.rowBlock (elemK m c) t.val l := by
  rw [outsAt0_A m c t h0 h1]
  dsimp only
  refine (congrFun (acc_first c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)) (ix2 (0 : Fin 1) l)).trans ?_
  exact (step_lane m c t _ 0 l (zero_row_apply _)).trans (zero_add _)

/-- At any later step it ends at what the step before left plus the step's row block. -/
theorem lane_next (c : Dev nD) (t : Fin cfg0.N) (h0 : ¬t.val % 8 = 0) (l : Fin 2048) (prev : EReal)
    (hprev : (outsAt0 (F := Ideal) m c (t.val - 1) (Nat.lt_of_le_of_lt (Nat.sub_le _ _) t.isLt)).2 (ix2 (0 : Fin 1) l) = prev) :
    (outsAt0 (F := Ideal) m c t.val t.isLt).2 (ix2 (0 : Fin 1) l) = prev + Cert.Kl.rowBlock (elemK m c) t.val l := by
  by_cases h1 : t.val % 8 = 7
  · rw [outsAt0_C m c t h0 h1]
    dsimp only
    refine (congrFun (acc_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _) (ix2 (0 : Fin 1) l)).trans ?_
    exact step_lane m c t _ prev l hprev
  · rw [outsAt0_B m c t h0 h1]
    dsimp only
    refine (congrFun (acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _) (ix2 (0 : Fin 1) l)).trans ?_
    exact step_lane m c t _ prev l hprev

/-- So after grid point n the accumulator holds the row blocks of n's group up to n: by induction on the point. -/
theorem acc_eq (c : Dev nD) : ∀ (n : ℕ) (h : n < cfg0.N) (l : Fin 2048),
    (outsAt0 (F := Ideal) m c n h).2 (ix2 (0 : Fin 1) l) = Cert.Kl.acc (elemK m c) n l := by
  intro n
  induction n with
  | zero =>
    intro h l
    exact (lane_first m c ⟨0, h⟩ rfl (by dsimp only; omega) l).trans (Cert.Kl.acc_first _ 0 rfl l).symm
  | succ n ih =>
    intro h l
    by_cases h0 : (n + 1) % 8 = 0
    · exact (lane_first m c ⟨n + 1, h⟩ h0 (by dsimp only; omega) l).trans (Cert.Kl.acc_first _ (n + 1) h0 l).symm
    · exact (lane_next m c ⟨n + 1, h⟩ h0 l _ (ih (Nat.lt_of_succ_lt h) l)).trans (Cert.Kl.acc_step _ n h0 l).symm

/-- At the last step of a group the output block holds, at (0, 0), the lanes of that accumulator summed; zero elsewhere. -/
theorem out_at (c : Dev nD) (t : Fin cfg0.N) (h0 : ¬t.val % 8 = 0) (h1 : t.val % 8 = 7) (a : Fin 8) (b : Fin 128) :
    (outsAt0 (F := Ideal) m c t.val t.isLt).1 (ix2 a b)
      = if a.val = 0 ∧ b.val = 0 then ∑ l : Fin 2048, Cert.Kl.acc (elemK m c) t.val l else 0 := by
  have hs : ∀ l : Fin 2048, k0_pay3 (F := Ideal) (iblk m c 0 t) (iblk m c 1 t) (iblk m c 2 t) (iblk m c 3 t)
      (outsAt0 (F := Ideal) m c (t.val - 1) (Nat.lt_of_le_of_lt (Nat.sub_le _ _) t.isLt)).2 (ix2 (0 : Fin 1) l)
        = Cert.Kl.acc (elemK m c) t.val l := fun l => by
    have e := acc_eq m c t.val t.isLt l
    rw [outsAt0_C m c t h0 h1] at e
    dsimp only at e
    exact (congrFun (acc_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _) (ix2 (0 : Fin 1) l)).symm.trans e
  rw [outsAt0_C m c t h0 h1]
  dsimp only
  refine (congrFun (out_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _) (ix2 a b)).trans ?_
  refine (out_apply _ a b).trans ?_
  simp only [hs]

end Cert.KernelIdeal.Found

end
-- ==== Proof.KernelTotal.lean ====
/-
  The kernel's result.

  The output window's block at grid point t is slab t / 8 of the [16, 128] table, and it is written back only at
  the last point of each core's eight.  What is written back there is the lane sum of the core's final accumulator
  at entry (0, 0) of the slab and zero at its other entries; the two slabs cover the table.  After the call the host
  adds the table up from zero and divides by 4096.  By the regrouping of the sums module, the table's total is the
  sum of every entry of E, the element-wise divergence with the shared reciprocal.
-/
import proofs.«167127_j74560632259496_2_alg».proof.Proof.KernelAcc
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Found

open Cert.KernelIdeal Cert.KernelIdeal.Gen Cert.KernelIdeal.Found

variable (m : (ℓ : Loc nD τ sig) → Buf (Elt Ideal) ℓ) (ρ : Dev nD → PrngReg)

/-- At grid point t the output window's block is block t / 8 of the [16, 128] table (the core's slab). -/
theorem idx_out : ∀ t : Fin cfg0.N, win0_4.index t (0 : Fin 2) = t.val / 8 ∧ win0_4.index t (1 : Fin 2) = 0 :=
  (by decide +kernel : ∀ t : Fin grid0.N, _)

/-- No block of the output window is cut short. -/
theorem xsize_out : ∀ t : Fin cfg0.N, win0_4.xsize (grid0.coords t) (0 : Fin 2) = 8 ∧ win0_4.xsize (grid0.coords t) (1 : Fin 2) = 128 :=
  (by decide +kernel : ∀ t : Fin grid0.N, _)

/-- The table the call leaves: core c's number at (8 c, 0), zero elsewhere. -/
abbrev table (c : Dev nD) : Buf (Elt Ideal) ((c : Thread nD τ).loc main_v4) := Cert.Kl.slab (elemK m c)

theorem flushed_eq (c : Dev nD) (t : Fin cfg0.N) (hf : (cfg0.win 4).flush t = true) :
    (dats m 0 c).flushed 4 t = ((cfg0.win 4).blk t).view.read (Elt Ideal) (table m c) := by
  have hN : cfg0.N = 16 := N_0
  have h7 : t.val % 8 = 7 := (flush0_4 t).mp hf
  have h0 : ¬t.val % 8 = 0 := by omega
  show (cfg0.win 4).cut (grid0.coords t) ((dats m 0 c).after 4 t) = _
  rw [after0_4]
  funext y
  rw [View.read_apply]
  show (outsAt0 (F := Ideal) m c t.val t.isLt).1 y = Cert.Kl.slab (elemK m c) (((cfg0.win 4).blk t).view.emb y)
  obtain ⟨a, b, rfl⟩ : ∃ (a : Fin 8) (b : Fin 128), y = ix2 a b := ⟨y 0, y 1, eq_ix2 y⟩
  rw [out_at m c t h0 h7 a b]
  show _ = (if (win0_4.index t 0 * 8 + 1 * a.val) % 8 = 0 ∧ (win0_4.index t 1 * 128 + 1 * b.val) = 0
      then Cert.Kl.coreSum (elemK m c) ((win0_4.index t 0 * 8 + 1 * a.val) / 8) else 0)
  rw [(idx_out t).1, (idx_out t).2]
  have ha := a.isLt
  by_cases hab : a.val = 0 ∧ b.val = 0
  · rw [if_pos hab, if_pos ⟨by omega, by omega⟩]
    unfold Cert.Kl.coreSum
    have e : 8 * ((t.val / 8 * 8 + 1 * a.val) / 8) + 7 = t.val := by omega
    rw [e]
  · rw [if_neg hab, if_neg (fun h => hab ⟨by omega, by omega⟩)]

/-- An entry whose row lies in core t / 8's eight rows is in the block the window holds at point t. -/
theorem mem_blk_out (t : Fin cfg0.N) (i : S16x128.Idx)
    (h : t.val / 8 * 8 ≤ (i 0 : Nat) ∧ (i 0 : Nat) < t.val / 8 * 8 + 8) :
    i ∈ ((cfg0.win 4).blk t).view.set := by
  have hi1 : (i 1 : Nat) < 128 := (i 1).isLt
  show i ∈ ((View.whole main_v4).slice (win0_4.rect t)).set
  rw [View.set_slice_whole, Rect.mem_set_unit]
  intro a
  match a with
  | ⟨0, _⟩ =>
    show win0_4.index t 0 * 8 ≤ (i 0 : Nat) ∧ (i 0 : Nat) < win0_4.index t 0 * 8 + win0_4.xsize (grid0.coords t) 0
    rw [(idx_out t).1, (xsize_out t).1]; exact h
  | ⟨1, _⟩ =>
    show win0_4.index t 1 * 128 ≤ (i 1 : Nat) ∧ (i 1 : Nat) < win0_4.index t 1 * 128 + win0_4.xsize (grid0.coords t) 1
    rw [(idx_out t).2, (xsize_out t).2]; omega

/-- The two last points write back the two slabs, which cover the table: it ends holding the cores' numbers. -/
theorem final_table (c : Dev nD) : (dats m 0 c).arrAt 4 cfg0.N = table m c :=
  (dats m 0 c).arrAt_eq_of_cover 4 (table m c) (flushed_eq m c) fun i => by
    have hN : cfg0.N = 16 := N_0
    have hi0 : (i 0 : Nat) < 16 := (i 0).isLt
    refine ⟨⟨(i 0 : Nat) / 8 * 8 + 7, by omega⟩, (flush0_4 _).mpr (by dsimp only; omega), ?_⟩
    exact mem_blk_out _ i (by dsimp only; omega)

/-- After the call the host adds the table up from zero and divides by 4096. -/
theorem tail_value (c : Dev nD) :
    Pipeline.afterTail₀ cfgs (dats m) 0 (V0 m) [hostOps1] c main_v6
      = fun _ => Ideal.div (∑ p, Cert.Kl.slab (elemK m c) p) (Ideal.ofBits .f32 0x45800000#32) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = table m c := (Pipeline.withArrays_arr spec0 launch0.win.arr_inj c _ _ 4).trans (final_table m c)
  rw [hw]
  funext i
  show Ideal.div (Host.reduceAdd (F := Ideal) (table m c) (constant S_ .f32 0x00000000#32) reducesTo_S16x128_S_d0_1 h_S_ i)
    (Ideal.ofBits .f32 0x45800000#32) = _
  refine congrArg (Ideal.div · (Ideal.ofBits .f32 0x45800000#32)) ?_
  simp only [Host.reduceAdd, Ideal.hostReduceAdd_def]
  refine (Ideal.hostReduceAdd_total reducesTo_S16x128_S_d0_1 (fun b => b.elim0) _ _ i).trans ?_
  rw [show (constant (F := Ideal) S_ .f32 0x00000000#32) (Shape.Idx.first h_S_) = 0 from Ideal.ofBits_zero_f32, zero_add]

/-- The kernel's result: every element of the table E summed, over 4096. -/
def result (c : Dev nD) : Buf (Elt Ideal) ((c : Thread nD τ).loc main_v6) :=
  fun _ => Ideal.div (∑ a : Fin 4096, ∑ l : Fin 2048, elemK m c a l) (Ideal.ofBits .f32 0x45800000#32)

/-- The run, read: the result at that number, the four arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans
        ((tail_value m c).trans (by unfold result; rw [Cert.Kl.sum_slab_eq_total])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Found

end
-- ==== Proof.KernelVsQuot.lean ====
/-
  The kernel's total against the reference's element.

  The [4096, 2048] matrices the call reads are the row-major views of the [32, 128, 32, 64] arguments, and a
  row-major view is a re-indexing by a bijection of the index sets.  So the sum of the table E over its 4096 x 2048
  entries is the sum, over every index of the original arrays, of the element with the shared reciprocal there.  At
  finite inputs that element is the element with two quotients.
-/
import proofs.«167127_j74560632259496_2_alg».proof.Proof.KernelTotal

noncomputable section

open Idealize.ShloMosaic Idealize.ShloMosaic.TcCoe Idealize.SL.Sem Idealize.ShloMosaic.ValueIdx

namespace Cert.KernelIdeal.Found

open Cert.KernelIdeal Cert.KernelIdeal.Gen Cert.KernelIdeal.Found

variable (m : (ℓ : Loc nD τ sig) → Buf (Elt Ideal) ℓ)

/-- The four arguments, on core c. -/
abbrev arg0 (c : Dev nD) : S32x128x32x64.Idx → EReal := m ((c : Thread nD τ).loc main_arg0)
abbrev arg1 (c : Dev nD) : S32x128x32x64.Idx → EReal := m ((c : Thread nD τ).loc main_arg1)
abbrev arg2 (c : Dev nD) : S32x128x32x64.Idx → EReal := m ((c : Thread nD τ).loc main_arg2)
abbrev arg3 (c : Dev nD) : S32x128x32x64.Idx → EReal := m ((c : Thread nD τ).loc main_arg3)

/-- The kernel's element at an index of the ORIGINAL [32, 128, 32, 64] arrays. -/
def elemAt (c : Dev nD) (k : S32x128x32x64.Idx) : EReal :=
  Cert.Kl.shared (Ideal.ofBits .f32 0x3F800000#32) (Ideal.ofBits .f32 0x40000000#32) (Ideal.ofBits .f32 0x3F000000#32) (arg0 m c k) (arg1 m c k) (arg2 m c k) (arg3 m c k)

/-- Entry (a, l) of the table E is that element at the index the reshape matches with (a, l). -/
theorem elemK_eq (c : Dev nD) (a : Fin 4096) (l : Fin 2048) :
    elemK m c a l = elemAt m c (Shape.reshapeEquiv shapeCasts_S32x128x32x64_S4096x2048 (ix2 a l)) := by
  unfold elemK
  rw [V_v0, V_v1, V_v2, V_v3]
  rfl

/-- At finite inputs the kernel's total is the sum, over every index, of the element with two quotients. -/
theorem total_eq_quot (c : Dev nD)
    (h0 : ∀ i, ∃ r : ℝ, arg0 m c i = r) (h1 : ∀ i, ∃ r : ℝ, arg1 m c i = r)
    (h2 : ∀ i, ∃ r : ℝ, arg2 m c i = r) (h3 : ∀ i, ∃ r : ℝ, arg3 m c i = r) :
    (∑ a : Fin 4096, ∑ l : Fin 2048, elemK m c a l)
      = ∑ k : S32x128x32x64.Idx, Cert.Kl.quot (Ideal.ofBits .f32 0x3F800000#32) (Ideal.ofBits .f32 0x40000000#32) (Ideal.ofBits .f32 0x3F000000#32) (arg0 m c k) (arg1 m c k) (arg2 m c k) (arg3 m c k) := by
  have s1 : (∑ a : Fin 4096, ∑ l : Fin 2048, elemK m c a l)
      = ∑ a : Fin 4096, ∑ l : Fin 2048, elemAt m c (Shape.reshapeEquiv shapeCasts_S32x128x32x64_S4096x2048 (ix2 a l)) :=
    Finset.sum_congr rfl fun a _ => Finset.sum_congr rfl fun l _ => elemK_eq m c a l
  have s2 : (∑ a : Fin 4096, ∑ l : Fin 2048, elemAt m c (Shape.reshapeEquiv shapeCasts_S32x128x32x64_S4096x2048 (ix2 a l)))
      = ∑ j : S4096x2048.Idx, elemAt m c (Shape.reshapeEquiv shapeCasts_S32x128x32x64_S4096x2048 j) :=
    (sum_idx2 (fun j : S4096x2048.Idx => elemAt m c (Shape.reshapeEquiv shapeCasts_S32x128x32x64_S4096x2048 j))).symm
  have s3 : (∑ j : S4096x2048.Idx, elemAt m c (Shape.reshapeEquiv shapeCasts_S32x128x32x64_S4096x2048 j))
      = ∑ k : S32x128x32x64.Idx, elemAt m c k :=
    Equiv.sum_comp (Shape.reshapeEquiv shapeCasts_S32x128x32x64_S4096x2048) (elemAt m c)
  refine s1.trans (s2.trans (s3.trans (Finset.sum_congr rfl fun k _ => ?_)))
  obtain ⟨r0, e0⟩ := h0 k
  obtain ⟨r1, e1⟩ := h1 k
  obtain ⟨r2, e2⟩ := h2 k
  obtain ⟨r3, e3⟩ := h3 k
  unfold elemAt
  rw [e0, e1, e2, e3]
  exact Cert.Kl.shared_eq_quot _ r0 r1 r2 r3

end Cert.KernelIdeal.Found

end
-- ==== Proof.RefTotal.lean ====
/-
  The reference as one sum.

  The reference forms, at every index of the [32, 128, 32, 64] arrays, the divergence element with its two
  quotients; sums it over the last two axes from zero; sums the [32, 128] result over both axes from zero; and
  divides by 4096.  The inner sum at (b, l) runs over the indices whose first two coordinates are (b, l); those fibers
  partition the index set, so the two sums together are the sum over every index, and the zeros they start from
  add nothing.
-/
import proofs.«167127_j74560632259496_2_alg».proof.Proof.Gen.ReferenceIdeal.Read
import proofs.«167127_j74560632259496_2_alg».proof.Proof.KlPoint

noncomputable section

open Idealize.ShloMosaic Idealize.ShloMosaic.TcCoe Idealize.SL.Sem

namespace Cert.ReferenceIdeal.Total

open Cert.ReferenceIdeal Cert.ReferenceIdeal.Gen Cert.ReferenceIdeal.Read

/-- Contents of one [32, 128, 32, 64] argument, as extended reals. -/
abbrev Arr := (⟨S32x128x32x64, .f32⟩ : BufTy).Contents (Elt Ideal)

/-- The reference's element at an index: the divergence with its two quotients. -/
theorem elem_apply (x0 x1 x2 x3 : Arr) (i : S32x128x32x64.Idx) :
    val_main_v13 (F := Ideal) x0 x1 x2 x3 i = Cert.Kl.quot (Ideal.ofBits .f32 0x3F800000#32) (Ideal.ofBits .f32 0x40000000#32) (Ideal.ofBits .f32 0x3F000000#32) (x0 i) (x1 i) (x2 i) (x3 i) := by
  simp only [val_main_v13_apply, val_main_v12_apply, val_main_cst_1_apply, val_main_v11_apply, val_main_v7_apply,
    val_main_v5_apply, val_main_v3_apply, val_main_v0_apply, val_main_v4_apply, val_main_v2_apply, val_main_v1_apply,
    val_main_v6_apply, val_main_cst_apply, val_main_v10_apply, val_main_v9_apply, val_main_cst_0_apply, val_main_v8_apply]
  rfl

/-- The inner sum, over the last two axes: at (b, l), the elements whose first two coordinates are (b, l). -/
theorem inner_apply (x0 x1 x2 x3 : Arr) (j : S32x128.Idx) :
    val_main_v14 (F := Ideal) x0 x1 x2 x3 j
      = ∑ k ∈ Finset.univ.filter (fun k : S32x128x32x64.Idx => reducesTo_S32x128x32x64_S32x128_d2_3.drop k = j),
          Cert.Kl.quot (Ideal.ofBits .f32 0x3F800000#32) (Ideal.ofBits .f32 0x40000000#32) (Ideal.ofBits .f32 0x3F000000#32) (x0 k) (x1 k) (x2 k) (x3 k) := by
  unfold val_main_v14
  simp only [Host.reduceAdd, Ideal.hostReduceAdd_def]
  unfold Ideal.hostReduceAdd
  rw [show val_main_cst_2 (F := Ideal) (Shape.Idx.first h_S_) = 0 from Ideal.ofBits_zero_f32, zero_add]
  exact Finset.sum_congr rfl fun k _ => elem_apply x0 x1 x2 x3 k

/-- The reference's result: every element summed, over 4096. -/
theorem total (x0 x1 x2 x3 : Arr) (i : S_.Idx) :
    val_main_v16 (F := Ideal) x0 x1 x2 x3 i
      = Ideal.div (∑ k : S32x128x32x64.Idx, Cert.Kl.quot (Ideal.ofBits .f32 0x3F800000#32) (Ideal.ofBits .f32 0x40000000#32) (Ideal.ofBits .f32 0x3F000000#32) (x0 k) (x1 k) (x2 k) (x3 k)) (Ideal.ofBits .f32 0x45800000#32) := by
  rw [val_main_v16_apply, val_main_v15_apply]
  show Ideal.div (Ideal.ofBits .f32 0x00000000#32 + ∑ j, val_main_v14 (F := Ideal) x0 x1 x2 x3 j) (Ideal.ofBits .f32 0x45800000#32) = _
  rw [Ideal.ofBits_zero_f32, zero_add]
  simp only [inner_apply]
  exact congrArg (Ideal.div · (Ideal.ofBits .f32 0x45800000#32)) (Finset.sum_fiberwise Finset.univ _ _)

end Cert.ReferenceIdeal.Total

end
-- ==== Proof.FiniteInputs.lean ====
/-
  What the precondition gives.

  The precondition is the conjunction, over the four inputs, of "every entry's absolute value is below +∞".  Each
  conjunct is an and-reduction over all axes of the entry-wise comparisons; a reduction by and that comes out true
  met only trues.  An extended real whose absolute value max x (-x) is below +∞ is neither infinity (each has
  absolute value +∞), so it is a real.
-/
import proofs.«167127_j74560632259496_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

open Idealize.ShloMosaic

namespace Cert.Finite

instance : Subsingleton (Cert.Pre_finite_inputs.S_).Idx := ⟨fun a b => funext fun d => d.elim0⟩

/-- The word 0x7F800000 denotes +∞. -/
theorem inf_val : Ideal.ofBits .f32 0x7F800000#32 = ⊤ := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = r := by
  rw [inf_val] at h
  induction x using EReal.rec with
  | bot => simp [Ideal.cmp] at h
  | coe r => exact ⟨r, rfl⟩
  | top => simp [Ideal.cmp] at h

variable [Cert.Pre_finite_inputs.Facts]

/-- One `all(|x| < inf)` that holds makes every entry of x a real. -/
theorem real_of_all (x : FVec Ideal Cert.Pre_finite_inputs.S32x128x32x64 .f32)
    (h : Host.reduce IntOp.andi (cmpf .olt (Host.absf x)
          (broadcastInDim Cert.Pre_finite_inputs.S32x128x32x64 ![] Cert.Pre_finite_inputs.Facts.bcast_S_S32x128x32x64
            (constant (F := Ideal) Cert.Pre_finite_inputs.S_ .f32 0x7F800000#32)))
        (constantI Cert.Pre_finite_inputs.S_ 1 1#1) Cert.Pre_finite_inputs.Facts.reducesTo_S32x128x32x64_S_d0_1_2_3
        Cert.Pre_finite_inputs.Facts.h_S_ ValueIdx.ix0 = 1#1)
    (i : Cert.Pre_finite_inputs.S32x128x32x64.Idx) : ∃ r : ℝ, x i = r := by
  have e := Host.reduce_andi_all _ _ _ _ ValueIdx.ix0 h i
  have eb : broadcastInDim Cert.Pre_finite_inputs.S32x128x32x64 ![] Cert.Pre_finite_inputs.Facts.bcast_S_S32x128x32x64
      (constant (F := Ideal) Cert.Pre_finite_inputs.S_ .f32 0x7F800000#32) i = Ideal.ofBits .f32 0x7F800000#32 :=
    (broadcastInDim_apply _ Cert.Pre_finite_inputs.Facts.bcast_S_S32x128x32x64 _ i (fun a => a.elim0) (fun a => a.elim0)).trans rfl
  have e' : Ideal.cmp .olt (max (x i) (-(x i)))
      (broadcastInDim Cert.Pre_finite_inputs.S32x128x32x64 ![] Cert.Pre_finite_inputs.Facts.bcast_S_S32x128x32x64
        (constant (F := Ideal) Cert.Pre_finite_inputs.S_ .f32 0x7F800000#32) i) = 1#1 := e
  rw [eb] at e'
  exact real_of_abs_lt (x i) e'

/-- The precondition makes every entry of the four inputs a real. -/
theorem reals_of_pre (x0 x1 x2 x3 : FVec Ideal Cert.Pre_finite_inputs.S32x128x32x64 .f32)
    (h : Cert.Pre_finite_inputs.fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h ValueIdx.ix0
  dsimp only [Cert.Pre_finite_inputs.fn, Cert.Pre_finite_inputs.fn_part1] at h0
  obtain ⟨h012, h3⟩ := IntOp.andi_eq_one.1 (show IntOp.andi _ _ = 1#1 from h0)
  obtain ⟨h01, h2⟩ := IntOp.andi_eq_one.1 (show IntOp.andi _ _ = 1#1 from h012)
  obtain ⟨hh0, hh1⟩ := IntOp.andi_eq_one.1 (show IntOp.andi _ _ = 1#1 from h01)
  exact ⟨real_of_all x0 hh0, real_of_all x1 hh1, real_of_all x2 h2, real_of_all x3 h3⟩

end Cert.Finite

end
-- ==== Proof.lean ====
/-
  The certificate's claim: the three programs run, and at the ideal values the kernel's result is the reference's.

  Both programs compute the mean, over the 4096 distributions, of the diagonal-Gaussian divergence summed over its
  2048 coordinates: one number, the sum of an element-wise expression over all 8,388,608 entries, divided by 4096.

  The reference forms the element with two quotients, a / q and d / q (a the prior scale, d the difference of the
  means, q the posterior scale), sums it over the last two axes, then over the first two, and divides.  The kernel
  forms the reciprocal 1 / q once and multiplies by it; it walks the entries as a [4096, 2048] matrix in sixteen row
  blocks, eight per core, adding each block's rows into a per-core row accumulator, sums that row's lanes after the
  core's last block into one entry of a [16, 128] table that is zero elsewhere, and lets the host add the table up
  and divide.

  Two facts join them.  First, over the extended reals addition is commutative and associative, so the kernel's
  grouping of the sum (rows, then blocks, then lanes, then the table, zeros included) and the reference's (last two
  axes, then first two) are the same total, re-indexed through the row-major reshape.  Second, the element itself
  agrees at finite inputs: away from q = 0 the product with the reciprocal is the quotient; at q = 0 the two ratios
  can differ (0 * ∞ = 0 against 0 / 0 = -∞) but the element, which sees the ratio only squared and under the
  logarithm, does not.  Finiteness of the inputs is the precondition, and the second fact is where it is used.

  The ideal pass rewrote nothing, so the kernel's idealization is its own text read at the ideal values.
-/
import proofs.«167127_j74560632259496_2_alg».proof.Defs
import proofs.«167127_j74560632259496_2_alg».proof.Proof.Gen.Kernel
import proofs.«167127_j74560632259496_2_alg».proof.Proof.Gen.Kernel.Frame
import proofs.«167127_j74560632259496_2_alg».proof.Proof.Gen.KernelIdeal
import proofs.«167127_j74560632259496_2_alg».proof.Proof.Gen.KernelIdeal.Frame
import proofs.«167127_j74560632259496_2_alg».proof.Proof.Gen.ReferenceIdeal
import proofs.«167127_j74560632259496_2_alg».proof.Proof.Gen.Pre_finite_inputs
import proofs.«167127_j74560632259496_2_alg».proof.Proof.Gen.ReferenceIdeal.Run
import proofs.«167127_j74560632259496_2_alg».proof.Proof.Gen.ReferenceIdeal.Read
import proofs.«167127_j74560632259496_2_alg».proof.Proof.KernelVsQuot
import proofs.«167127_j74560632259496_2_alg».proof.Proof.RefTotal
import proofs.«167127_j74560632259496_2_alg».proof.Proof.FiniteInputs
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories agreeing on the four inputs, both results are the sum over every entry of the element with two
    quotients, over 4096: the reference by its own sums, the kernel by its accumulation, the regrouping, and the
    element's agreement at the finite inputs the precondition grants. -/
theorem algebraic : Cert.algebraic_KernelIdeal_ReferenceIdeal := by
  intro m ρ m' ρ' hpre hagree
  refine ⟨fun c => Cert.KernelIdeal.Found.result m c, Cert.KernelIdeal.Found.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq]
  funext i
  rw [Cert.ReferenceIdeal.Total.total, (hagree c).1, (hagree c).2.1, (hagree c).2.2.1, (hagree c).2.2.2]
  obtain ⟨f0, f1, f2, f3⟩ := Cert.Finite.reals_of_pre _ _ _ _ (hpre c)
  exact congrArg (Ideal.div · (Ideal.ofBits .f32 0x45800000#32))
    (Cert.KernelIdeal.Found.total_eq_quot m c f0 f1 f2 f3).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
